-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  main_v88

def fn_part4 {F : FTy → Type} [FloatOps F] (main_arg14 : FVec F S1024 .f32) (main_arg15 : FVec F S1024 .f32) (main_arg16 : FVec F S1024 .f32) (main_arg17 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 35
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22
abbrev cc0_sem19_0 : DmaSem sig := 23
abbrev cc0_sem19_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1024.size a ≤ S1x1024.size a
  hwx0_16 : ∀ i : grid0.Coords, EltTy.bits .f32 = 32 ∨ (Rect.block (s := S1x1024) S1x1024.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1024.size a ≤ S1x1024.size a
  hwx0_17 : ∀ i : grid0.Coords, EltTy.bits .f32 = 32 ∨ (Rect.block (s := S1x1024) S1x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x1024.size a ≤ S8192x1024.size a
  hwx0_18 : ∀ i : grid0.Coords, EltTy.bits .f32 = 32 ∨ (Rect.block (s := S8192x1024) S512x1024.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x1024.size a ≤ S8192x1024.size a
  hwx0_19 : ∀ i : grid0.Coords, EltTy.bits .f32 = 32 ∨ (Rect.block (s := S8192x1024) S512x1024.size (cc0_transform_19 i) (hinb0_19 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v13) S1x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v14) S1x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v15_0) S512x1024.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v15_1) S512x1024.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S1x1024 : Shape := ⟨2, ![1, 1024]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024x4096, .f32⟩
  | .hbm, ⟨19, _⟩ => ⟨S1024x4096, .f32⟩
  | .hbm, ⟨20, _⟩ => ⟨S4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_1 : Ref sig .tc := ⟨.hbm, 49, rfl⟩
abbrev main_v29 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_3 : Ref sig .tc := ⟨.hbm, 65, rfl⟩
abbrev main_v43 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.Spec.lean ====
/-
  The peephole LSTM cell, stated once on the extended reals.

  For one batch row `p` and one unit `q` a gate's pre-activation is
      z_g(p, q) = (∑ₖ x(p, k) · W_g(k, q) + ∑ₖ h(p, k) · U_g(k, q)) + b_g(q),
  the two sums added first and the bias last.  With σ the logistic function,
      c'(p, q) = σ(z_f + V_f(q) · c(p, q)) · c(p, q) + σ(z_i + V_i(q) · c(p, q)) · tanh z_c,
      h'(p, q) = σ(z_o + V_o(q) · c'(p, q)) · tanh c'(p, q).
  `gate`, `cellState`, `hiddenState` spell these; `newC` and `newH` are the two result arrays over the whole batch
  of 8192 rows, and `gateRows` is the same pre-activation over a band of 512 rows whose bias is a [1, 1024] row
  (`gateRows_eq_gate`: a band's pre-activation is the batch's at the band's row).
-/
import Idealize.ShloMosaic.Lib.ValueIdx
import Idealize.ShloMosaic.PureOps.Ideal

noncomputable section

namespace Cert.Lstm

open Idealize.ShloMosaic Idealize.ShloMosaic.ValueIdx

/-- A [8192, 1024] array of extended reals: the inputs, the previous hidden and cell states, the results. -/
abbrev Act : Type := (⟨2, ![8192, 1024]⟩ : Shape).Idx → EReal
/-- A band of 512 rows of such an array. -/
abbrev Band : Type := (⟨2, ![512, 1024]⟩ : Shape).Idx → EReal
/-- A [1024, 1024] weight matrix. -/
abbrev Mat : Type := (⟨2, ![1024, 1024]⟩ : Shape).Idx → EReal
/-- A bias or peephole vector of 1024 entries. -/
abbrev Vect : Type := (⟨1, ![1024]⟩ : Shape).Idx → EReal
/-- The same vector laid out as one row, [1, 1024]. -/
abbrev Row : Type := (⟨2, ![1, 1024]⟩ : Shape).Idx → EReal

/-- The next cell state from the three pre-activations `zi`, `zf`, `zc`, the two peephole weights and the old cell state. -/
def cellState (zi zf zc vi vf c : EReal) : EReal :=
  Ideal.logistic (zf + vf * c) * c + Ideal.logistic (zi + vi * c) * Ideal.tanh zc

/-- The next hidden state from the output gate's pre-activation, its peephole weight and the next cell state. -/
def hiddenState (zo vo ct : EReal) : EReal := Ideal.logistic (zo + vo * ct) * Ideal.tanh ct

/-- A gate's pre-activation at batch row `p` and unit `q`: both projections summed over the 1024 input coordinates,
    added, then the bias. -/
def gate (x h : Act) (W U : Mat) (b : Vect) (p : Fin 8192) (q : Fin 1024) : EReal :=
  ((∑ k : Fin 1024, x (ix2 p k) * W (ix2 k q)) + ∑ k : Fin 1024, h (ix2 p k) * U (ix2 k q)) + b (ix1 q)

/-- The same over a band of 512 rows, the bias a [1, 1024] row. -/
def gateRows (x h : Band) (W U : Mat) (b : Row) (r : Fin 512) (q : Fin 1024) : EReal :=
  ((∑ k : Fin 1024, x (ix2 r k) * W (ix2 k q)) + ∑ k : Fin 1024, h (ix2 r k) * U (ix2 k q)) + b (ix2 0 q)

/-- The next cell state at batch row `p` and unit `q`. -/
def newCAt (x h c : Act) (Wi Wf Wc Ui Uf Uc : Mat) (Vi Vf bi bf bc : Vect) (p : Fin 8192) (q : Fin 1024) : EReal :=
  cellState (gate x h Wi Ui bi p q) (gate x h Wf Uf bf p q) (gate x h Wc Uc bc p q) (Vi (ix1 q)) (Vf (ix1 q)) (c (ix2 p q))

/-- The next hidden state at batch row `p` and unit `q`. -/
def newHAt (x h c : Act) (Wi Wf Wc Wo Ui Uf Uc Uo : Mat) (Vi Vf Vo bi bf bc bo : Vect) (p : Fin 8192) (q : Fin 1024) : EReal :=
  hiddenState (gate x h Wo Uo bo p q) (Vo (ix1 q)) (newCAt x h c Wi Wf Wc Ui Uf Uc Vi Vf bi bf bc p q)

/-- The next cell state of the whole batch. -/
def newC (x h c : Act) (Wi Wf Wc Ui Uf Uc : Mat) (Vi Vf bi bf bc : Vect) : Act := fun i =>
  newCAt x h c Wi Wf Wc Ui Uf Uc Vi Vf bi bf bc (i 0) (i 1)

/-- The next hidden state of the whole batch. -/
def newH (x h c : Act) (Wi Wf Wc Wo Ui Uf Uc Uo : Mat) (Vi Vf Vo bi bf bc bo : Vect) : Act := fun i =>
  newHAt x h c Wi Wf Wc Wo Ui Uf Uc Uo Vi Vf Vo bi bf bc bo (i 0) (i 1)

/-- A band's pre-activation is the whole batch's at the band's row: when row `r` of the two bands is row `p` of the
    two arrays, the matrices agree, and the bias row holds the bias vector, the two sums and the bias are the same. -/
theorem gateRows_eq_gate (xb hb : Band) (x h : Act) (Wb Ub W U : Mat) (brow : Row) (b : Vect) (r : Fin 512) (p : Fin 8192)
    (q : Fin 1024) (hx : ∀ k, xb (ix2 r k) = x (ix2 p k)) (hh : ∀ k, hb (ix2 r k) = h (ix2 p k))
    (hW : ∀ y, Wb y = W y) (hU : ∀ y, Ub y = U y) (hb' : brow (ix2 0 q) = b (ix1 q)) :
    gateRows xb hb Wb Ub brow r q = gate x h W U b p q := by
  unfold gateRows gate
  rw [hb']
  refine congrArg₂ (· + ·) (congrArg₂ (· + ·) (Finset.sum_congr rfl fun k _ => ?_) (Finset.sum_congr rfl fun k _ => ?_)) rfl
  · rw [hx k, hW]
  · rw [hh k, hU]

end Cert.Lstm

end
-- ==== Proof.Cell.lean ====
/-
  The kernel body's arithmetic, read at one entry of a band of 512 batch rows.

  Everything the body computes between its loads and its two stores is entrywise except three things: the products of a
  band [512, 1024] with a weight matrix [1024, 1024] (into a zero accumulator: entry (r, q) is ∑ₖ a(r, k) · w(k, q)), the
  bias and peephole rows [1, 1024] repeated down the 512 rows (entry (r, q) is the row's entry (0, q)), and changes of
  float format, which are the identity on the extended reals.  So at an entry (r, q) the value stored to the cell-state
  window is `cellState` of the three pre-activations `gateRows`, and the value stored to the hidden-state window is
  `hiddenState` of the fourth pre-activation and that cell state.
-/
import proofs.«176618_j14920716386505_2_alg».proof.Proof.Gen.KernelIdeal.Skeleton
import proofs.«176618_j14920716386505_2_alg».proof.Proof.LibMatmulZero
import proofs.«176618_j14920716386505_2_alg».proof.Proof.Spec
import Idealize.ShloMosaic.Lib.Pipeline.Value
import Idealize.ShloMosaic.Lib.ValueIdx
import Idealize.ShloMosaic.PureOps.Ideal.Laws

noncomputable section

namespace Cert.KernelIdeal.Cell

open Cert.KernelIdeal Cert.KernelIdeal.Gen Idealize.ShloMosaic Idealize.ShloMosaic.ValueIdx Cert.Lstm

/-- The product's record: its one contracted axis has extent 1024; the left operand's index at output index `j` and
    contracted position `s` is (j 0, s), the right operand's (s, j 1). -/
theorem lhs_row (j : S512x1024.Idx) (s : dot_S512x1024_S1024x1024_S512x1024_1_0_0_1_n_n.contr.Idx) :
    (dot_S512x1024_S1024x1024_S512x1024_1_0_0_1_n_n.lhsIdx j s 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

theorem lhs_col (j : S512x1024.Idx) (s : dot_S512x1024_S1024x1024_S512x1024_1_0_0_1_n_n.contr.Idx) :
    (dot_S512x1024_S1024x1024_S512x1024_1_0_0_1_n_n.lhsIdx j s 1).val = (s ⟨0, by decide⟩).val :=
  dot_S512x1024_S1024x1024_S512x1024_1_0_0_1_n_n.lhsIdx_val_of_single rfl j s

theorem rhs_row (j : S512x1024.Idx) (s : dot_S512x1024_S1024x1024_S512x1024_1_0_0_1_n_n.contr.Idx) :
    (dot_S512x1024_S1024x1024_S512x1024_1_0_0_1_n_n.rhsIdx j s 0).val = (s ⟨0, by decide⟩).val :=
  dot_S512x1024_S1024x1024_S512x1024_1_0_0_1_n_n.rhsIdx_val_of_single rfl j s

theorem rhs_col (j : S512x1024.Idx) (s : dot_S512x1024_S1024x1024_S512x1024_1_0_0_1_n_n.contr.Idx) :
    (dot_S512x1024_S1024x1024_S512x1024_1_0_0_1_n_n.rhsIdx j s 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- A band times a weight matrix, into zero: entry (r, q) is ∑ₖ a(r, k) · w(k, q). -/
theorem product_apply (a : FVec Ideal S512x1024 .bf16) (w : FVec Ideal S1024x1024 .bf16) (r : Fin 512) (q : Fin 1024) :
    matmul (F := Ideal) dot_S512x1024_S1024x1024_S512x1024_1_0_0_1_n_n none a w (constant S512x1024 .f32 0x00000000#32) (ix2 r q)
      = ∑ k : Fin 1024, a (ix2 r k) * w (ix2 k q) :=
  Cert.LibMatmulZero.matmul_zero_apply dot_S512x1024_S1024x1024_S512x1024_1_0_0_1_n_n 1024 rfl rfl a w (ix2 r q)
    (fun k => ix2 r k) (fun k => ix2 k q)
    (fun k d => by
      have hk := contrEquiv1_symm_val dot_S512x1024_S1024x1024_S512x1024_1_0_0_1_n_n 1024 rfl rfl k
      match d with
      | ⟨0, _⟩ => exact lhs_row _ _
      | ⟨1, _⟩ => exact (lhs_col _ _).trans hk)
    (fun k d => by
      have hk := contrEquiv1_symm_val dot_S512x1024_S1024x1024_S512x1024_1_0_0_1_n_n 1024 rfl rfl k
      match d with
      | ⟨0, _⟩ => exact (rhs_row _ _).trans hk
      | ⟨1, _⟩ => exact rhs_col _ _)

/-- The same with the band rounded to the narrow format and the matrix recast to its own shape, both the identity here. -/
theorem projection_apply (x : FVec Ideal S512x1024 .f32) (w : FVec Ideal S1024x1024 .bf16) (r : Fin 512) (q : Fin 1024) :
    matmul (F := Ideal) dot_S512x1024_S1024x1024_S512x1024_1_0_0_1_n_n none (truncf .bf16 x bitsLt_bf16_f32)
        (shapeCast S1024x1024 w shapeCasts_S1024x1024_S1024x1024) (constant S512x1024 .f32 0x00000000#32) (ix2 r q)
      = ∑ k : Fin 1024, x (ix2 r k) * w (ix2 k q) := by
  rw [shapeCast_self]
  exact product_apply (truncf .bf16 x bitsLt_bf16_f32) w r q

/-- A [1, 1024] row repeated down the 512 rows: entry (r, q) is the row's entry (0, q). -/
theorem repeated_row_apply (v : FVec Ideal S1x1024 .f32) (r : Fin 512) (q : Fin 1024) :
    broadcastTo S512x1024 (shapeCast S1x1024 v shapeCasts_S1x1024_S1x1024) broadcasts_S1x1024_S512x1024 (ix2 r q)
      = v (ix2 0 q) := by
  rw [shapeCast_self]
  exact broadcastTo_apply v broadcasts_S1x1024_S512x1024 (ix2 r q) (ix2 0 q) (fun d => by
    match d with
    | ⟨0, _⟩ => show 0 = if (1 : Nat) = 1 then 0 else r.val; rw [if_pos rfl]
    | ⟨1, _⟩ => show q.val = if (1024 : Nat) = 1 then 0 else q.val; rw [if_neg (by decide)])

/-- A gate's pre-activation as the body computes it (the first of the three such payloads), at an entry. -/
theorem gate_i_apply (x0 x1 : FVec Ideal S512x1024 .f32) (w u : FVec Ideal S1024x1024 .bf16) (b : FVec Ideal S1x1024 .f32)
    (r : Fin 512) (q : Fin 1024) : k0_pay3 (F := Ideal) x0 x1 w u b (ix2 r q) = gateRows x0 x1 w u b r q := by
  unfold k0_pay3 k0_pay1 k0_pay2 gateRows
  exact congrArg₂ (· + ·) (congrArg₂ (· + ·) (projection_apply x0 w r q) (projection_apply x1 u r q)) (repeated_row_apply b r q)

/-- The second gate's pre-activation, at an entry. -/
theorem gate_f_apply (x0 x1 : FVec Ideal S512x1024 .f32) (w u : FVec Ideal S1024x1024 .bf16) (b : FVec Ideal S1x1024 .f32)
    (r : Fin 512) (q : Fin 1024) : k0_pay4 (F := Ideal) x0 x1 w u b (ix2 r q) = gateRows x0 x1 w u b r q := by
  unfold k0_pay4 k0_pay1 k0_pay2 gateRows
  exact congrArg₂ (· + ·) (congrArg₂ (· + ·) (projection_apply x0 w r q) (projection_apply x1 u r q)) (repeated_row_apply b r q)

/-- The value stored to the cell-state window, at an entry (r, q), from the body's loads: the cell update of the three
    pre-activations over the band. The third gate's pre-activation is assembled inside this payload from the input
    projection, the recurrent product and the bias row. -/
theorem stored_cell_apply (x0 x1 x2 : FVec Ideal S512x1024 .f32) (wi wf wc ui uf uc : FVec Ideal S1024x1024 .bf16)
    (bi bf bc vi vf : FVec Ideal S1x1024 .f32) (r : Fin 512) (q : Fin 1024) :
    k0_pay7 (F := Ideal) (k0_pay2 x1) x2 (k0_pay3 x0 x1 wi ui bi) (k0_pay4 x0 x1 wf uf bf) (k0_pay5 x0 wc) (k0_pay6 uc) bc vi vf (ix2 r q)
      = cellState (gateRows x0 x1 wi ui bi r q) (gateRows x0 x1 wf uf bf r q) (gateRows x0 x1 wc uc bc r q)
          (vi (ix2 0 q)) (vf (ix2 0 q)) (x2 (ix2 r q)) := by
  have hc : (k0_pay5 (F := Ideal) x0 wc (ix2 r q)
        + matmul (F := Ideal) dot_S512x1024_S1024x1024_S512x1024_1_0_0_1_n_n none (k0_pay2 x1) (k0_pay6 uc) (constant S512x1024 .f32 0x00000000#32) (ix2 r q))
        + broadcastTo S512x1024 (shapeCast S1x1024 bc shapeCasts_S1x1024_S1x1024) broadcasts_S1x1024_S512x1024 (ix2 r q)
      = gateRows x0 x1 wc uc bc r q := by
    unfold k0_pay5 k0_pay1 k0_pay2 k0_pay6 gateRows
    exact congrArg₂ (· + ·) (congrArg₂ (· + ·) (projection_apply x0 wc r q) (projection_apply x1 uc r q)) (repeated_row_apply bc r q)
  have hi := gate_i_apply x0 x1 wi ui bi r q
  have hf := gate_f_apply x0 x1 wf uf bf r q
  have hvi := repeated_row_apply vi r q
  have hvf := repeated_row_apply vf r q
  unfold k0_pay7 cellState
  show Ideal.logistic (k0_pay4 (F := Ideal) x0 x1 wf uf bf (ix2 r q)
          + broadcastTo S512x1024 (shapeCast S1x1024 vf shapeCasts_S1x1024_S1x1024) broadcasts_S1x1024_S512x1024 (ix2 r q) * x2 (ix2 r q)) * x2 (ix2 r q)
        + Ideal.logistic (k0_pay3 (F := Ideal) x0 x1 wi ui bi (ix2 r q)
          + broadcastTo S512x1024 (shapeCast S1x1024 vi shapeCasts_S1x1024_S1x1024) broadcasts_S1x1024_S512x1024 (ix2 r q) * x2 (ix2 r q))
          * Ideal.tanh ((k0_pay5 (F := Ideal) x0 wc (ix2 r q)
              + matmul (F := Ideal) dot_S512x1024_S1024x1024_S512x1024_1_0_0_1_n_n none (k0_pay2 x1) (k0_pay6 uc) (constant S512x1024 .f32 0x00000000#32) (ix2 r q))
              + broadcastTo S512x1024 (shapeCast S1x1024 bc shapeCasts_S1x1024_S1x1024) broadcasts_S1x1024_S512x1024 (ix2 r q)) = _
  rw [hc, hi, hf, hvi, hvf]

/-- The value stored to the hidden-state window, at an entry (r, q), from the body's loads: the output gate of the
    fourth pre-activation and the new cell state, times tanh of that cell state. -/
theorem stored_hidden_apply (x0 x1 x2 : FVec Ideal S512x1024 .f32) (wi wf wc wo ui uf uc uo : FVec Ideal S1024x1024 .bf16)
    (bi bf bc bo vi vf vo : FVec Ideal S1x1024 .f32) (r : Fin 512) (q : Fin 1024) :
    k0_pay8 (F := Ideal) (k0_pay1 x0) (k0_pay2 x1) x2 (k0_pay3 x0 x1 wi ui bi) (k0_pay4 x0 x1 wf uf bf) (k0_pay5 x0 wc) (k0_pay6 uc)
        bc vi vf wo uo bo vo (ix2 r q)
      = hiddenState (gateRows x0 x1 wo uo bo r q) (vo (ix2 0 q))
          (cellState (gateRows x0 x1 wi ui bi r q) (gateRows x0 x1 wf uf bf r q) (gateRows x0 x1 wc uc bc r q)
            (vi (ix2 0 q)) (vf (ix2 0 q)) (x2 (ix2 r q))) := by
  have hcell := stored_cell_apply x0 x1 x2 wi wf wc ui uf uc bi bf bc vi vf r q
  have ho : (matmul (F := Ideal) dot_S512x1024_S1024x1024_S512x1024_1_0_0_1_n_n none (k0_pay1 x0) (shapeCast S1024x1024 wo shapeCasts_S1024x1024_S1024x1024) (constant S512x1024 .f32 0x00000000#32) (ix2 r q)
        + matmul (F := Ideal) dot_S512x1024_S1024x1024_S512x1024_1_0_0_1_n_n none (k0_pay2 x1) (shapeCast S1024x1024 uo shapeCasts_S1024x1024_S1024x1024) (constant S512x1024 .f32 0x00000000#32) (ix2 r q))
        + broadcastTo S512x1024 (shapeCast S1x1024 bo shapeCasts_S1x1024_S1x1024) broadcasts_S1x1024_S512x1024 (ix2 r q)
      = gateRows x0 x1 wo uo bo r q := by
    unfold k0_pay1 k0_pay2 gateRows
    exact congrArg₂ (· + ·) (congrArg₂ (· + ·) (projection_apply x0 wo r q) (projection_apply x1 uo r q)) (repeated_row_apply bo r q)
  have hvo := repeated_row_apply vo r q
  unfold k0_pay8 hiddenState
  show Ideal.logistic (((matmul (F := Ideal) dot_S512x1024_S1024x1024_S512x1024_1_0_0_1_n_n none (k0_pay1 x0) (shapeCast S1024x1024 wo shapeCasts_S1024x1024_S1024x1024) (constant S512x1024 .f32 0x00000000#32) (ix2 r q)
            + matmul (F := Ideal) dot_S512x1024_S1024x1024_S512x1024_1_0_0_1_n_n none (k0_pay2 x1) (shapeCast S1024x1024 uo shapeCasts_S1024x1024_S1024x1024) (constant S512x1024 .f32 0x00000000#32) (ix2 r q))
            + broadcastTo S512x1024 (shapeCast S1x1024 bo shapeCasts_S1x1024_S1x1024) broadcasts_S1x1024_S512x1024 (ix2 r q))
          + broadcastTo S512x1024 (shapeCast S1x1024 vo shapeCasts_S1x1024_S1x1024) broadcasts_S1x1024_S512x1024 (ix2 r q)
            * k0_pay7 (F := Ideal) (k0_pay2 x1) x2 (k0_pay3 x0 x1 wi ui bi) (k0_pay4 x0 x1 wf uf bf) (k0_pay5 x0 wc) (k0_pay6 uc) bc vi vf (ix2 r q))
        * Ideal.tanh (k0_pay7 (F := Ideal) (k0_pay2 x1) x2 (k0_pay3 x0 x1 wi ui bi) (k0_pay4 x0 x1 wf uf bf) (k0_pay5 x0 wc) (k0_pay6 uc) bc vi vf (ix2 r q)) = _
  rw [ho, hvo, hcell]

end Cert.KernelIdeal.Cell

end
-- ==== Proof.Whole.lean ====
/-
  From the bands to the whole arrays: what the kernel's two result arrays hold after the run.

  The grid has 16 points.  At point t the three activation windows hold rows 512 · t … 512 · t + 511 of x, h and c;
  the eight weight windows always hold their whole [1024, 1024] matrix (written before the call by narrowing each
  weight matrix's float format, the identity here); the seven row windows always hold their whole [1, 1024] row
  (written before the call by viewing a bias or peephole vector of 1024 as one row).  Each result window writes back
  rows 512 · t … 512 · t + 511, so by the cell arithmetic of `Cell` point t writes band t of `newC` and of `newH` of
  the argument arrays; the 16 bands tile the 8192 rows, so the two result arrays end as `newC` and `newH`.
-/
import proofs.«176618_j14920716386505_2_alg».proof.Proof.Gen.KernelIdeal.Value
import proofs.«176618_j14920716386505_2_alg».proof.Proof.Cell
import Idealize.ShloMosaic.Lib.Pipeline.Value
import Idealize.ShloMosaic.Lib.ValueIdx
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.Lstm Cert.KernelIdeal.Cell
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The windows' block indices, decided over the 16 grid points -/

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx18 : ∀ t : Fin cfg0.N, win0_18.index t (0 : Fin 2) = t.val ∧ win0_18.index t (1 : Fin 2) = 0 :=
  (by decide +kernel : ∀ t : Fin grid0.N, _)

theorem idx19 : ∀ t : Fin cfg0.N, win0_19.index t (0 : Fin 2) = t.val ∧ win0_19.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem idx13 : ∀ t : Fin cfg0.N, win0_13.index t (0 : Fin 2) = 0 ∧ win0_13.index t (1 : Fin 2) = 0 :=
  (by decide +kernel : ∀ t : Fin grid0.N, _)

theorem idx14 : ∀ t : Fin cfg0.N, win0_14.index t (0 : Fin 2) = 0 ∧ win0_14.index t (1 : Fin 2) = 0 :=
  (by decide +kernel : ∀ t : Fin grid0.N, _)

theorem idx15 : ∀ t : Fin cfg0.N, win0_15.index t (0 : Fin 2) = 0 ∧ win0_15.index t (1 : Fin 2) = 0 :=
  (by decide +kernel : ∀ t : Fin grid0.N, _)

theorem idx16 : ∀ t : Fin cfg0.N, win0_16.index t (0 : Fin 2) = 0 ∧ win0_16.index t (1 : Fin 2) = 0 :=
  (by decide +kernel : ∀ t : Fin grid0.N, _)

theorem idx17 : ∀ t : Fin cfg0.N, win0_17.index t (0 : Fin 2) = 0 ∧ win0_17.index t (1 : Fin 2) = 0 :=
  (by decide +kernel : ∀ t : Fin grid0.N, _)

/-! ## The argument arrays, named -/

/-- Argument 0 on core `c`, as launched. -/
abbrev arr0 (c : Dev nD) : Act := m ((c : Thread nD τ).loc main_arg0)
/-- Argument 1 on core `c`, as launched. -/
abbrev arr1 (c : Dev nD) : Act := m ((c : Thread nD τ).loc main_arg1)
/-- Argument 2 on core `c`, as launched. -/
abbrev arr2 (c : Dev nD) : Act := m ((c : Thread nD τ).loc main_arg2)
/-- Argument 3 on core `c`, as launched. -/
abbrev arr3 (c : Dev nD) : Mat := m ((c : Thread nD τ).loc main_arg3)
/-- Argument 4 on core `c`, as launched. -/
abbrev arr4 (c : Dev nD) : Mat := m ((c : Thread nD τ).loc main_arg4)
/-- Argument 5 on core `c`, as launched. -/
abbrev arr5 (c : Dev nD) : Mat := m ((c : Thread nD τ).loc main_arg5)
/-- Argument 6 on core `c`, as launched. -/
abbrev arr6 (c : Dev nD) : Mat := m ((c : Thread nD τ).loc main_arg6)
/-- Argument 7 on core `c`, as launched. -/
abbrev arr7 (c : Dev nD) : Mat := m ((c : Thread nD τ).loc main_arg7)
/-- Argument 8 on core `c`, as launched. -/
abbrev arr8 (c : Dev nD) : Mat := m ((c : Thread nD τ).loc main_arg8)
/-- Argument 9 on core `c`, as launched. -/
abbrev arr9 (c : Dev nD) : Mat := m ((c : Thread nD τ).loc main_arg9)
/-- Argument 10 on core `c`, as launched. -/
abbrev arr10 (c : Dev nD) : Mat := m ((c : Thread nD τ).loc main_arg10)
/-- Argument 11 on core `c`, as launched. -/
abbrev arr11 (c : Dev nD) : Vect := m ((c : Thread nD τ).loc main_arg11)
/-- Argument 12 on core `c`, as launched. -/
abbrev arr12 (c : Dev nD) : Vect := m ((c : Thread nD τ).loc main_arg12)
/-- Argument 13 on core `c`, as launched. -/
abbrev arr13 (c : Dev nD) : Vect := m ((c : Thread nD τ).loc main_arg13)
/-- Argument 14 on core `c`, as launched. -/
abbrev arr14 (c : Dev nD) : Vect := m ((c : Thread nD τ).loc main_arg14)
/-- Argument 15 on core `c`, as launched. -/
abbrev arr15 (c : Dev nD) : Vect := m ((c : Thread nD τ).loc main_arg15)
/-- Argument 16 on core `c`, as launched. -/
abbrev arr16 (c : Dev nD) : Vect := m ((c : Thread nD τ).loc main_arg16)
/-- Argument 17 on core `c`, as launched. -/
abbrev arr17 (c : Dev nD) : Vect := m ((c : Thread nD τ).loc main_arg17)

/-- The next cell state of the argument arrays: x, h, c; W_i, W_f, W_c; U_i, U_f, U_c; V_i, V_f; b_i, b_f, b_c. -/
def resultC (c : Dev nD) : Act :=
  newC (arr0 m c) (arr1 m c) (arr2 m c) (arr3 m c) (arr4 m c) (arr5 m c) (arr7 m c) (arr8 m c) (arr9 m c) (arr11 m c) (arr12 m c) (arr14 m c) (arr15 m c) (arr16 m c)

/-- The next hidden state of the argument arrays. -/
def resultH (c : Dev nD) : Act :=
  newH (arr0 m c) (arr1 m c) (arr2 m c) (arr3 m c) (arr4 m c) (arr5 m c) (arr6 m c) (arr7 m c) (arr8 m c) (arr9 m c) (arr10 m c) (arr11 m c) (arr12 m c) (arr13 m c) (arr14 m c) (arr15 m c) (arr16 m c) (arr17 m c)

/-! ## The windows' blocks, read -/

/-- Entry (r, k) of activation window 0's band at point t is entry (512 · t + r, k) of its argument array. -/
theorem band0_apply (c : Dev nD) (t : Fin cfg0.N) (r : Fin 512) (k : Fin 1024) (p : Fin 8192) (hp : p.val = t.val * 512 + r.val) :
    (iblk m c 0 t : FVec Ideal S512x1024 .f32) (ix2 r k)
      = (m ((c : Thread nD τ).loc main_arg0) : S8192x1024.Idx → EReal) (ix2 p k) := by
  obtain ⟨e0, e1⟩ := idx0 t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = p.val; omega
  | ⟨1, _⟩ => show win0_0.index t (1 : Fin 2) * 1024 + 1 * k.val = k.val; omega

/-- Entry (r, k) of activation window 1's band at point t is entry (512 · t + r, k) of its argument array. -/
theorem band1_apply (c : Dev nD) (t : Fin cfg0.N) (r : Fin 512) (k : Fin 1024) (p : Fin 8192) (hp : p.val = t.val * 512 + r.val) :
    (iblk m c 1 t : FVec Ideal S512x1024 .f32) (ix2 r k)
      = (m ((c : Thread nD τ).loc main_arg1) : S8192x1024.Idx → EReal) (ix2 p k) := by
  obtain ⟨e0, e1⟩ := idx1 t
  show V m c main_arg1 (((cfg0.win 1).blk t).view.emb (ix2 r k)) = _
  rw [V_main_arg1]
  refine congrArg _ (funext fun a => Fin.ext ?_)
  match a with
  | ⟨0, _⟩ => show win0_1.index t (0 : Fin 2) * 512 + 1 * r.val = p.val; omega
  | ⟨1, _⟩ => show win0_1.index t (1 : Fin 2) * 1024 + 1 * k.val = k.val; omega

/-- Entry (r, k) of activation window 2's band at point t is entry (512 · t + r, k) of its argument array. -/
theorem band2_apply (c : Dev nD) (t : Fin cfg0.N) (r : Fin 512) (k : Fin 1024) (p : Fin 8192) (hp : p.val = t.val * 512 + r.val) :
    (iblk m c 2 t : FVec Ideal S512x1024 .f32) (ix2 r k)
      = (m ((c : Thread nD τ).loc main_arg2) : S8192x1024.Idx → EReal) (ix2 p k) := by
  obtain ⟨e0, e1⟩ := idx2 t
  show V m c main_arg2 (((cfg0.win 2).blk t).view.emb (ix2 r k)) = _
  rw [V_main_arg2]
  refine congrArg _ (funext fun a => Fin.ext ?_)
  match a with
  | ⟨0, _⟩ => show win0_2.index t (0 : Fin 2) * 512 + 1 * r.val = p.val; omega
  | ⟨1, _⟩ => show win0_2.index t (1 : Fin 2) * 1024 + 1 * k.val = k.val; omega

/-- Weight window 3 always holds its whole matrix: argument 3, its float format narrowed before the call (the
    identity on the extended reals). -/
theorem matrix3_apply (c : Dev nD) (t : Fin cfg0.N) (y : S1024x1024.Idx) :
    (iblk m c 3 t : FVec Ideal S1024x1024 .bf16) y = (m ((c : Thread nD τ).loc main_arg3) : S1024x1024.Idx → EReal) y := by
  obtain ⟨e0, e1⟩ := idx3 t
  have hV : (V m c main_v0 : S1024x1024.Idx → EReal) = (m ((c : Thread nD τ).loc main_arg3) : S1024x1024.Idx → EReal) := by
    dsimp only [V, hostOps0]; after_results; rfl
  show (V m c main_v0 : S1024x1024.Idx → EReal) (((cfg0.win 3).blk t).view.emb y) = _
  rw [hV]
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- Weight window 4 always holds its whole matrix: argument 4, its float format narrowed before the call (the
    identity on the extended reals). -/
theorem matrix4_apply (c : Dev nD) (t : Fin cfg0.N) (y : S1024x1024.Idx) :
    (iblk m c 4 t : FVec Ideal S1024x1024 .bf16) y = (m ((c : Thread nD τ).loc main_arg4) : S1024x1024.Idx → EReal) y := by
  obtain ⟨e0, e1⟩ := idx4 t
  have hV : (V m c main_v1 : S1024x1024.Idx → EReal) = (m ((c : Thread nD τ).loc main_arg4) : S1024x1024.Idx → EReal) := by
    dsimp only [V, hostOps0]; after_results; rfl
  show (V m c main_v1 : S1024x1024.Idx → EReal) (((cfg0.win 4).blk t).view.emb y) = _
  rw [hV]
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 1024 + 1 * (y 1).val = (y 1).val; omega

/-- Weight window 5 always holds its whole matrix: argument 5, its float format narrowed before the call (the
    identity on the extended reals). -/
theorem matrix5_apply (c : Dev nD) (t : Fin cfg0.N) (y : S1024x1024.Idx) :
    (iblk m c 5 t : FVec Ideal S1024x1024 .bf16) y = (m ((c : Thread nD τ).loc main_arg5) : S1024x1024.Idx → EReal) y := by
  obtain ⟨e0, e1⟩ := idx5 t
  have hV : (V m c main_v2 : S1024x1024.Idx → EReal) = (m ((c : Thread nD τ).loc main_arg5) : S1024x1024.Idx → EReal) := by
    dsimp only [V, hostOps0]; after_results; rfl
  show (V m c main_v2 : S1024x1024.Idx → EReal) (((cfg0.win 5).blk t).view.emb y) = _
  rw [hV]
  refine congrArg _ (funext fun a => Fin.ext ?_)
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- Weight window 6 always holds its whole matrix: argument 6, its float format narrowed before the call (the
    identity on the extended reals). -/
theorem matrix6_apply (c : Dev nD) (t : Fin cfg0.N) (y : S1024x1024.Idx) :
    (iblk m c 6 t : FVec Ideal S1024x1024 .bf16) y = (m ((c : Thread nD τ).loc main_arg6) : S1024x1024.Idx → EReal) y := by
  obtain ⟨e0, e1⟩ := idx6 t
  have hV : (V m c main_v3 : S1024x1024.Idx → EReal) = (m ((c : Thread nD τ).loc main_arg6) : S1024x1024.Idx → EReal) := by
    dsimp only [V, hostOps0]; after_results; rfl
  show (V m c main_v3 : S1024x1024.Idx → EReal) (((cfg0.win 6).blk t).view.emb y) = _
  rw [hV]
  refine congrArg _ (funext fun a => Fin.ext ?_)
  match a with
  | ⟨0, _⟩ => show win0_6.index t (0 : Fin 2) * 1024 + 1 * (y 0).val = (y 0).val; omega
  | ⟨1, _⟩ => show win0_6.index t (1 : Fin 2) * 1024 + 1 * (y 1).val = (y 1).val; omega

/-- Weight window 7 always holds its whole matrix: argument 7, its float format narrowed before the call (the
    identity on the extended reals). -/
theorem matrix7_apply (c : Dev nD) (t : Fin cfg0.N) (y : S1024x1024.Idx) :
    (iblk m c 7 t : FVec Ideal S1024x1024 .bf16) y = (m ((c : Thread nD τ).loc main_arg7) : S1024x1024.Idx → EReal) y := by
  obtain ⟨e0, e1⟩ := idx7 t
  have hV : (V m c main_v4 : S1024x1024.Idx → EReal) = (m ((c : Thread nD τ).loc main_arg7) : S1024x1024.Idx → EReal) := by
    dsimp only [V, hostOps0]; after_results; rfl
  show (V m c main_v4 : S1024x1024.Idx → EReal) (((cfg0.win 7).blk t).view.emb y) = _
  rw [hV]
  refine congrArg _ (funext fun a => Fin.ext ?_)
  match a with
  | ⟨0, _⟩ => show win0_7.index t (0 : Fin 2) * 1024 + 1 * (y 0).val = (y 0).val; omega
  | ⟨1, _⟩ => show win0_7.index t (1 : Fin 2) * 1024 + 1 * (y 1).val = (y 1).val; omega

/-- Weight window 8 always holds its whole matrix: argument 8, its float format narrowed before the call (the
    identity on the extended reals). -/
theorem matrix8_apply (c : Dev nD) (t : Fin cfg0.N) (y : S1024x1024.Idx) :
    (iblk m c 8 t : FVec Ideal S1024x1024 .bf16) y = (m ((c : Thread nD τ).loc main_arg8) : S1024x1024.Idx → EReal) y := by
  obtain ⟨e0, e1⟩ := idx8 t
  have hV : (V m c main_v5 : S1024x1024.Idx → EReal) = (m ((c : Thread nD τ).loc main_arg8) : S1024x1024.Idx → EReal) := by
    dsimp only [V, hostOps0]; after_results; rfl
  show (V m c main_v5 : S1024x1024.Idx → EReal) (((cfg0.win 8).blk t).view.emb y) = _
  rw [hV]
  refine congrArg _ (funext fun a => Fin.ext ?_)
  match a with
  | ⟨0, _⟩ => show win0_8.index t (0 : Fin 2) * 1024 + 1 * (y 0).val = (y 0).val; omega
  | ⟨1, _⟩ => show win0_8.index t (1 : Fin 2) * 1024 + 1 * (y 1).val = (y 1).val; omega

/-- Weight window 9 always holds its whole matrix: argument 9, its float format narrowed before the call (the
    identity on the extended reals). -/
theorem matrix9_apply (c : Dev nD) (t : Fin cfg0.N) (y : S1024x1024.Idx) :
    (iblk m c 9 t : FVec Ideal S1024x1024 .bf16) y = (m ((c : Thread nD τ).loc main_arg9) : S1024x1024.Idx → EReal) y := by
  obtain ⟨e0, e1⟩ := idx9 t
  have hV : (V m c main_v6 : S1024x1024.Idx → EReal) = (m ((c : Thread nD τ).loc main_arg9) : S1024x1024.Idx → EReal) := by
    dsimp only [V, hostOps0]; after_results; rfl
  show (V m c main_v6 : S1024x1024.Idx → EReal) (((cfg0.win 9).blk t).view.emb y) = _
  rw [hV]
  refine congrArg _ (funext fun a => Fin.ext ?_)
  match a with
  | ⟨0, _⟩ => show win0_9.index t (0 : Fin 2) * 1024 + 1 * (y 0).val = (y 0).val; omega
  | ⟨1, _⟩ => show win0_9.index t (1 : Fin 2) * 1024 + 1 * (y 1).val = (y 1).val; omega

/-- Weight window 10 always holds its whole matrix: argument 10, its float format narrowed before the call (the
    identity on the extended reals). -/
theorem matrix10_apply (c : Dev nD) (t : Fin cfg0.N) (y : S1024x1024.Idx) :
    (iblk m c 10 t : FVec Ideal S1024x1024 .bf16) y = (m ((c : Thread nD τ).loc main_arg10) : S1024x1024.Idx → EReal) y := by
  obtain ⟨e0, e1⟩ := idx10 t
  have hV : (V m c main_v7 : S1024x1024.Idx → EReal) = (m ((c : Thread nD τ).loc main_arg10) : S1024x1024.Idx → EReal) := by
    dsimp only [V, hostOps0]; after_results; rfl
  show (V m c main_v7 : S1024x1024.Idx → EReal) (((cfg0.win 10).blk t).view.emb y) = _
  rw [hV]
  refine congrArg _ (funext fun a => Fin.ext ?_)
  match a with
  | ⟨0, _⟩ => show win0_10.index t (0 : Fin 2) * 1024 + 1 * (y 0).val = (y 0).val; omega
  | ⟨1, _⟩ => show win0_10.index t (1 : Fin 2) * 1024 + 1 * (y 1).val = (y 1).val; omega

/-- A vector of 1024 viewed as one row [1, 1024]: entry (0, q) is entry q. -/
theorem one_row_apply (v : S1024.Idx → EReal) (h : S1024.ShapeCasts S1x1024) (q : Fin 1024) :
    shapeCast S1x1024 v h (ix2 0 q) = v (ix1 q) :=
  (shapeCast_addUnit_apply ![1024] v h (ix2 0 q)).trans (congrArg v (funext fun a => by match a with | ⟨0, _⟩ => rfl))

/-- Row window 11 always holds its whole row: argument 14, a vector of 1024, viewed as [1, 1024] before the call. -/
theorem row11_apply (c : Dev nD) (t : Fin cfg0.N) (q : Fin 1024) :
    (iblk m c 11 t : FVec Ideal S1x1024 .f32) (ix2 0 q) = (m ((c : Thread nD τ).loc main_arg14) : S1024.Idx → EReal) (ix1 q) := by
  obtain ⟨e0, e1⟩ := idx11 t
  have hV : (V m c main_v8 : S1x1024.Idx → EReal)
      = shapeCast S1x1024 (m ((c : Thread nD τ).loc main_arg14) : S1024.Idx → EReal) shapeCasts_S1024_S1x1024 := by
    dsimp only [V, hostOps0]; after_results; rfl
  have hemb : ((cfg0.win 11).blk t).view.emb (ix2 0 q) = ix2 0 q := funext fun a => Fin.ext (by
    match a with
    | ⟨0, _⟩ => show win0_11.index t (0 : Fin 2) * 1 + 1 * 0 = 0; omega
    | ⟨1, _⟩ => show win0_11.index t (1 : Fin 2) * 1024 + 1 * q.val = q.val; omega)
  show (V m c main_v8 : S1x1024.Idx → EReal) (((cfg0.win 11).blk t).view.emb (ix2 0 q)) = _
  rw [hemb, hV]
  exact one_row_apply _ _ q

/-- Row window 12 always holds its whole row: argument 15, a vector of 1024, viewed as [1, 1024] before the call. -/
theorem row12_apply (c : Dev nD) (t : Fin cfg0.N) (q : Fin 1024) :
    (iblk m c 12 t : FVec Ideal S1x1024 .f32) (ix2 0 q) = (m ((c : Thread nD τ).loc main_arg15) : S1024.Idx → EReal) (ix1 q) := by
  obtain ⟨e0, e1⟩ := idx12 t
  have hV : (V m c main_v9 : S1x1024.Idx → EReal)
      = shapeCast S1x1024 (m ((c : Thread nD τ).loc main_arg15) : S1024.Idx → EReal) shapeCasts_S1024_S1x1024 := by
    dsimp only [V, hostOps0]; after_results; rfl
  have hemb : ((cfg0.win 12).blk t).view.emb (ix2 0 q) = ix2 0 q := funext fun a => Fin.ext (by
    match a with
    | ⟨0, _⟩ => show win0_12.index t (0 : Fin 2) * 1 + 1 * 0 = 0; omega
    | ⟨1, _⟩ => show win0_12.index t (1 : Fin 2) * 1024 + 1 * q.val = q.val; omega)
  show (V m c main_v9 : S1x1024.Idx → EReal) (((cfg0.win 12).blk t).view.emb (ix2 0 q)) = _
  rw [hemb, hV]
  exact one_row_apply _ _ q

/-- Row window 13 always holds its whole row: argument 16, a vector of 1024, viewed as [1, 1024] before the call. -/
theorem row13_apply (c : Dev nD) (t : Fin cfg0.N) (q : Fin 1024) :
    (iblk m c 13 t : FVec Ideal S1x1024 .f32) (ix2 0 q) = (m ((c : Thread nD τ).loc main_arg16) : S1024.Idx → EReal) (ix1 q) := by
  obtain ⟨e0, e1⟩ := idx13 t
  have hV : (V m c main_v10 : S1x1024.Idx → EReal)
      = shapeCast S1x1024 (m ((c : Thread nD τ).loc main_arg16) : S1024.Idx → EReal) shapeCasts_S1024_S1x1024 := by
    dsimp only [V, hostOps0]; after_results; rfl
  have hemb : ((cfg0.win 13).blk t).view.emb (ix2 0 q) = ix2 0 q := funext fun a => Fin.ext (by
    match a with
    | ⟨0, _⟩ => show win0_13.index t (0 : Fin 2) * 1 + 1 * 0 = 0; omega
    | ⟨1, _⟩ => show win0_13.index t (1 : Fin 2) * 1024 + 1 * q.val = q.val; omega)
  show (V m c main_v10 : S1x1024.Idx → EReal) (((cfg0.win 13).blk t).view.emb (ix2 0 q)) = _
  rw [hemb, hV]
  exact one_row_apply _ _ q

/-- Row window 14 always holds its whole row: argument 17, a vector of 1024, viewed as [1, 1024] before the call. -/
theorem row14_apply (c : Dev nD) (t : Fin cfg0.N) (q : Fin 1024) :
    (iblk m c 14 t : FVec Ideal S1x1024 .f32) (ix2 0 q) = (m ((c : Thread nD τ).loc main_arg17) : S1024.Idx → EReal) (ix1 q) := by
  obtain ⟨e0, e1⟩ := idx14 t
  have hV : (V m c main_v11 : S1x1024.Idx → EReal)
      = shapeCast S1x1024 (m ((c : Thread nD τ).loc main_arg17) : S1024.Idx → EReal) shapeCasts_S1024_S1x1024 := by
    dsimp only [V, hostOps0]; after_results; rfl
  have hemb : ((cfg0.win 14).blk t).view.emb (ix2 0 q) = ix2 0 q := funext fun a => Fin.ext (by
    match a with
    | ⟨0, _⟩ => show win0_14.index t (0 : Fin 2) * 1 + 1 * 0 = 0; omega
    | ⟨1, _⟩ => show win0_14.index t (1 : Fin 2) * 1024 + 1 * q.val = q.val; omega)
  show (V m c main_v11 : S1x1024.Idx → EReal) (((cfg0.win 14).blk t).view.emb (ix2 0 q)) = _
  rw [hemb, hV]
  exact one_row_apply _ _ q

/-- Row window 15 always holds its whole row: argument 11, a vector of 1024, viewed as [1, 1024] before the call. -/
theorem row15_apply (c : Dev nD) (t : Fin cfg0.N) (q : Fin 1024) :
    (iblk m c 15 t : FVec Ideal S1x1024 .f32) (ix2 0 q) = (m ((c : Thread nD τ).loc main_arg11) : S1024.Idx → EReal) (ix1 q) := by
  obtain ⟨e0, e1⟩ := idx15 t
  have hV : (V m c main_v12 : S1x1024.Idx → EReal)
      = shapeCast S1x1024 (m ((c : Thread nD τ).loc main_arg11) : S1024.Idx → EReal) shapeCasts_S1024_S1x1024 := by
    dsimp only [V, hostOps0]; after_results; rfl
  have hemb : ((cfg0.win 15).blk t).view.emb (ix2 0 q) = ix2 0 q := funext fun a => Fin.ext (by
    match a with
    | ⟨0, _⟩ => show win0_15.index t (0 : Fin 2) * 1 + 1 * 0 = 0; omega
    | ⟨1, _⟩ => show win0_15.index t (1 : Fin 2) * 1024 + 1 * q.val = q.val; omega)
  show (V m c main_v12 : S1x1024.Idx → EReal) (((cfg0.win 15).blk t).view.emb (ix2 0 q)) = _
  rw [hemb, hV]
  exact one_row_apply _ _ q

/-- Row window 16 always holds its whole row: argument 12, a vector of 1024, viewed as [1, 1024] before the call. -/
theorem row16_apply (c : Dev nD) (t : Fin cfg0.N) (q : Fin 1024) :
    (iblk m c 16 t : FVec Ideal S1x1024 .f32) (ix2 0 q) = (m ((c : Thread nD τ).loc main_arg12) : S1024.Idx → EReal) (ix1 q) := by
  obtain ⟨e0, e1⟩ := idx16 t
  have hV : (V m c main_v13 : S1x1024.Idx → EReal)
      = shapeCast S1x1024 (m ((c : Thread nD τ).loc main_arg12) : S1024.Idx → EReal) shapeCasts_S1024_S1x1024 := by
    dsimp only [V, hostOps0]; after_results; rfl
  have hemb : ((cfg0.win 16).blk t).view.emb (ix2 0 q) = ix2 0 q := funext fun a => Fin.ext (by
    match a with
    | ⟨0, _⟩ => show win0_16.index t (0 : Fin 2) * 1 + 1 * 0 = 0; omega
    | ⟨1, _⟩ => show win0_16.index t (1 : Fin 2) * 1024 + 1 * q.val = q.val; omega)
  show (V m c main_v13 : S1x1024.Idx → EReal) (((cfg0.win 16).blk t).view.emb (ix2 0 q)) = _
  rw [hemb, hV]
  exact one_row_apply _ _ q

/-- Row window 17 always holds its whole row: argument 13, a vector of 1024, viewed as [1, 1024] before the call. -/
theorem row17_apply (c : Dev nD) (t : Fin cfg0.N) (q : Fin 1024) :
    (iblk m c 17 t : FVec Ideal S1x1024 .f32) (ix2 0 q) = (m ((c : Thread nD τ).loc main_arg13) : S1024.Idx → EReal) (ix1 q) := by
  obtain ⟨e0, e1⟩ := idx17 t
  have hV : (V m c main_v14 : S1x1024.Idx → EReal)
      = shapeCast S1x1024 (m ((c : Thread nD τ).loc main_arg13) : S1024.Idx → EReal) shapeCasts_S1024_S1x1024 := by
    dsimp only [V, hostOps0]; after_results; rfl
  have hemb : ((cfg0.win 17).blk t).view.emb (ix2 0 q) = ix2 0 q := funext fun a => Fin.ext (by
    match a with
    | ⟨0, _⟩ => show win0_17.index t (0 : Fin 2) * 1 + 1 * 0 = 0; omega
    | ⟨1, _⟩ => show win0_17.index t (1 : Fin 2) * 1024 + 1 * q.val = q.val; omega)
  show (V m c main_v14 : S1x1024.Idx → EReal) (((cfg0.win 17).blk t).view.emb (ix2 0 q)) = _
  rw [hemb, hV]
  exact one_row_apply _ _ q

/-! ## One band of the results -/

/-- The batch row that row r of band t is: 512 · t + r. -/
def rowOf (t : Fin cfg0.N) (r : Fin 512) : Fin 8192 :=
  ⟨t.val * 512 + r.val, by
    have ht : t.val < 16 := lt_of_lt_of_eq t.isLt N_0
    have hr := r.isLt
    omega⟩

/-- The input gate's pre-activation over band t is the batch's at the band's rows. -/
theorem gate_i_eq (c : Dev nD) (t : Fin cfg0.N) (r : Fin 512) (q : Fin 1024) :
    gateRows (iblk m c 0 t) (iblk m c 1 t) (iblk m c 3 t) (iblk m c 7 t) (iblk m c 11 t) r q
      = gate (arr0 m c) (arr1 m c) (arr3 m c) (arr7 m c) (arr14 m c) (rowOf t r) q :=
  gateRows_eq_gate (iblk m c 0 t) (iblk m c 1 t) (arr0 m c) (arr1 m c) (iblk m c 3 t) (iblk m c 7 t) (arr3 m c) (arr7 m c) (iblk m c 11 t) (arr14 m c) r (rowOf t r) q
    (fun k => band0_apply m c t r k (rowOf t r) rfl) (fun k => band1_apply m c t r k (rowOf t r) rfl)
    (matrix3_apply m c t) (matrix7_apply m c t) (row11_apply m c t q)

/-- The forget gate's. -/
theorem gate_f_eq (c : Dev nD) (t : Fin cfg0.N) (r : Fin 512) (q : Fin 1024) :
    gateRows (iblk m c 0 t) (iblk m c 1 t) (iblk m c 4 t) (iblk m c 8 t) (iblk m c 12 t) r q
      = gate (arr0 m c) (arr1 m c) (arr4 m c) (arr8 m c) (arr15 m c) (rowOf t r) q :=
  gateRows_eq_gate (iblk m c 0 t) (iblk m c 1 t) (arr0 m c) (arr1 m c) (iblk m c 4 t) (iblk m c 8 t) (arr4 m c) (arr8 m c) (iblk m c 12 t) (arr15 m c) r (rowOf t r) q
    (fun k => band0_apply m c t r k (rowOf t r) rfl) (fun k => band1_apply m c t r k (rowOf t r) rfl)
    (matrix4_apply m c t) (matrix8_apply m c t) (row12_apply m c t q)

/-- The candidate's. -/
theorem gate_c_eq (c : Dev nD) (t : Fin cfg0.N) (r : Fin 512) (q : Fin 1024) :
    gateRows (iblk m c 0 t) (iblk m c 1 t) (iblk m c 5 t) (iblk m c 9 t) (iblk m c 13 t) r q
      = gate (arr0 m c) (arr1 m c) (arr5 m c) (arr9 m c) (arr16 m c) (rowOf t r) q :=
  gateRows_eq_gate (iblk m c 0 t) (iblk m c 1 t) (arr0 m c) (arr1 m c) (iblk m c 5 t) (iblk m c 9 t) (arr5 m c) (arr9 m c) (iblk m c 13 t) (arr16 m c) r (rowOf t r) q
    (fun k => band0_apply m c t r k (rowOf t r) rfl) (fun k => band1_apply m c t r k (rowOf t r) rfl)
    (matrix5_apply m c t) (matrix9_apply m c t) (row13_apply m c t q)

/-- The output gate's. -/
theorem gate_o_eq (c : Dev nD) (t : Fin cfg0.N) (r : Fin 512) (q : Fin 1024) :
    gateRows (iblk m c 0 t) (iblk m c 1 t) (iblk m c 6 t) (iblk m c 10 t) (iblk m c 14 t) r q
      = gate (arr0 m c) (arr1 m c) (arr6 m c) (arr10 m c) (arr17 m c) (rowOf t r) q :=
  gateRows_eq_gate (iblk m c 0 t) (iblk m c 1 t) (arr0 m c) (arr1 m c) (iblk m c 6 t) (iblk m c 10 t) (arr6 m c) (arr10 m c) (iblk m c 14 t) (arr17 m c) r (rowOf t r) q
    (fun k => band0_apply m c t r k (rowOf t r) rfl) (fun k => band1_apply m c t r k (rowOf t r) rfl)
    (matrix6_apply m c t) (matrix10_apply m c t) (row14_apply m c t q)

/-- The cell update over band t, at (r, q), is the next cell state at batch row 512 · t + r. -/
theorem band_cell_eq (c : Dev nD) (t : Fin cfg0.N) (r : Fin 512) (q : Fin 1024) :
    cellState (gateRows (iblk m c 0 t) (iblk m c 1 t) (iblk m c 3 t) (iblk m c 7 t) (iblk m c 11 t) r q) (gateRows (iblk m c 0 t) (iblk m c 1 t) (iblk m c 4 t) (iblk m c 8 t) (iblk m c 12 t) r q)
        (gateRows (iblk m c 0 t) (iblk m c 1 t) (iblk m c 5 t) (iblk m c 9 t) (iblk m c 13 t) r q) ((iblk m c 15 t) (ix2 0 q)) ((iblk m c 16 t) (ix2 0 q)) ((iblk m c 2 t) (ix2 r q))
      = resultC m c (ix2 (rowOf t r) q) := by
  rw [gate_i_eq, gate_f_eq, gate_c_eq, row15_apply, row16_apply, band2_apply m c t r q (rowOf t r) rfl]
  rfl

/-- The hidden update over band t, at (r, q), is the next hidden state at batch row 512 · t + r. -/
theorem band_hidden_eq (c : Dev nD) (t : Fin cfg0.N) (r : Fin 512) (q : Fin 1024) :
    hiddenState (gateRows (iblk m c 0 t) (iblk m c 1 t) (iblk m c 6 t) (iblk m c 10 t) (iblk m c 14 t) r q) ((iblk m c 17 t) (ix2 0 q))
        (cellState (gateRows (iblk m c 0 t) (iblk m c 1 t) (iblk m c 3 t) (iblk m c 7 t) (iblk m c 11 t) r q) (gateRows (iblk m c 0 t) (iblk m c 1 t) (iblk m c 4 t) (iblk m c 8 t) (iblk m c 12 t) r q)
        (gateRows (iblk m c 0 t) (iblk m c 1 t) (iblk m c 5 t) (iblk m c 9 t) (iblk m c 13 t) r q) ((iblk m c 15 t) (ix2 0 q)) ((iblk m c 16 t) (ix2 0 q)) ((iblk m c 2 t) (ix2 r q)))
      = resultH m c (ix2 (rowOf t r) q) := by
  rw [band_cell_eq, gate_o_eq, row17_apply]
  rfl

/-! ## The two result arrays -/

/-- What point t writes back to result window 19 is band t of the result array. -/
theorem flushed19_eq (c : Dev nD) (t : Fin cfg0.N) :
    (dats m 0 c).flushed 19 t = ((cfg0.win 19).blk t).view.read (Elt Ideal) (resultC m c) := by
  rw [Value.flushed19]
  unfold out0_19
  rw [View.canon_unit_zero zero_offsets]
  simp only [View.ld_unit_zero (S := S512x1024) zero_offsets, View.ld_unit_zero (S := S1024x1024) zero_offsets,
    View.ld_unit_zero (S := S1x1024) zero_offsets]
  obtain ⟨e0, e1⟩ := idx19 t
  funext y
  obtain ⟨r, q, rfl⟩ : ∃ (r : Fin 512) (q : Fin 1024), y = ix2 r q := ⟨y 0, y 1, eq_ix2 y⟩
  have hemb : ((cfg0.win 19).blk t).view.emb (ix2 r q) = ix2 (rowOf t r) q := funext fun a => Fin.ext (by
    match a with
    | ⟨0, _⟩ => show win0_19.index t (0 : Fin 2) * 512 + 1 * r.val = t.val * 512 + r.val; omega
    | ⟨1, _⟩ => show win0_19.index t (1 : Fin 2) * 1024 + 1 * q.val = q.val; omega)
  show k0_pay7 (F := Ideal) (k0_pay2 (iblk m c 1 t)) (iblk m c 2 t) (k0_pay3 (iblk m c 0 t) (iblk m c 1 t) (iblk m c 3 t) (iblk m c 7 t) (iblk m c 11 t)) (k0_pay4 (iblk m c 0 t) (iblk m c 1 t) (iblk m c 4 t) (iblk m c 8 t) (iblk m c 12 t)) (k0_pay5 (iblk m c 0 t) (iblk m c 5 t)) (k0_pay6 (iblk m c 9 t)) (iblk m c 13 t) (iblk m c 15 t) (iblk m c 16 t) (ix2 r q)
      = resultC m c (((cfg0.win 19).blk t).view.emb (ix2 r q))
  rw [hemb]
  refine (stored_cell_apply (iblk m c 0 t) (iblk m c 1 t) (iblk m c 2 t) (iblk m c 3 t) (iblk m c 4 t) (iblk m c 5 t) (iblk m c 7 t) (iblk m c 8 t) (iblk m c 9 t) (iblk m c 11 t) (iblk m c 12 t) (iblk m c 13 t) (iblk m c 15 t) (iblk m c 16 t) r q).trans ?_
  exact band_cell_eq m c t r q

/-- What point t writes back to result window 18 is band t of the result array. -/
theorem flushed18_eq (c : Dev nD) (t : Fin cfg0.N) :
    (dats m 0 c).flushed 18 t = ((cfg0.win 18).blk t).view.read (Elt Ideal) (resultH m c) := by
  rw [Value.flushed18]
  unfold out0_18
  rw [View.canon_unit_zero zero_offsets]
  simp only [View.ld_unit_zero (S := S512x1024) zero_offsets, View.ld_unit_zero (S := S1024x1024) zero_offsets,
    View.ld_unit_zero (S := S1x1024) zero_offsets]
  obtain ⟨e0, e1⟩ := idx18 t
  funext y
  obtain ⟨r, q, rfl⟩ : ∃ (r : Fin 512) (q : Fin 1024), y = ix2 r q := ⟨y 0, y 1, eq_ix2 y⟩
  have hemb : ((cfg0.win 18).blk t).view.emb (ix2 r q) = ix2 (rowOf t r) q := funext fun a => Fin.ext (by
    match a with
    | ⟨0, _⟩ => show win0_18.index t (0 : Fin 2) * 512 + 1 * r.val = t.val * 512 + r.val; omega
    | ⟨1, _⟩ => show win0_18.index t (1 : Fin 2) * 1024 + 1 * q.val = q.val; omega)
  show k0_pay8 (F := Ideal) (k0_pay1 (iblk m c 0 t)) (k0_pay2 (iblk m c 1 t)) (iblk m c 2 t) (k0_pay3 (iblk m c 0 t) (iblk m c 1 t) (iblk m c 3 t) (iblk m c 7 t) (iblk m c 11 t)) (k0_pay4 (iblk m c 0 t) (iblk m c 1 t) (iblk m c 4 t) (iblk m c 8 t) (iblk m c 12 t)) (k0_pay5 (iblk m c 0 t) (iblk m c 5 t)) (k0_pay6 (iblk m c 9 t)) (iblk m c 13 t) (iblk m c 15 t) (iblk m c 16 t) (iblk m c 6 t) (iblk m c 10 t) (iblk m c 14 t) (iblk m c 17 t) (ix2 r q)
      = resultH m c (((cfg0.win 18).blk t).view.emb (ix2 r q))
  rw [hemb]
  refine (stored_hidden_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) r q).trans ?_
  exact band_hidden_eq m c t r q

/-- An index of the result array is in point t's band iff its coordinates are in the band's ranges. -/
theorem mem_band19 (t : Fin cfg0.N) (i : S8192x1024.Idx) :
    i ∈ ((cfg0.win 19).blk t).view.set ↔ ∀ a : Fin 2, win0_19.index t a * S512x1024.size a ≤ (i a).val
      ∧ (i a).val < win0_19.index t a * S512x1024.size a + S512x1024.size a := by
  show i ∈ ((View.whole main_v15_1).slice (win0_19.rect t)).set ↔ _
  rw [View.set_slice_whole, Rect.mem_set_unit]
  exact Iff.rfl

/-- The 16 bands tile the 8192 rows: row p is in band p / 512. -/
theorem cover19 (i : S8192x1024.Idx) :
    ∃ t : Fin cfg0.N, (cfg0.win 19).flush t = true ∧ i ∈ ((cfg0.win 19).blk t).view.set := by
  have hi0 : (i 0).val < 8192 := (i 0).isLt
  have hi1 : (i 1).val < 1024 := (i 1).isLt
  have hlt : (i 0).val / 512 < cfg0.N := by
    show (i 0).val / 512 < grid0.N
    rw [N_0]; omega
  obtain ⟨e0, e1⟩ := idx19 ⟨(i 0).val / 512, hlt⟩
  have e0' : win0_19.index ⟨(i 0).val / 512, hlt⟩ (0 : Fin 2) = (i 0).val / 512 := e0
  refine ⟨⟨(i 0).val / 512, hlt⟩, flush0_19 _, ?_⟩
  rw [mem_band19]
  intro a
  match a with
  | ⟨0, _⟩ =>
    show win0_19.index ⟨(i 0).val / 512, hlt⟩ (0 : Fin 2) * 512 ≤ (i 0).val
      ∧ (i 0).val < win0_19.index ⟨(i 0).val / 512, hlt⟩ (0 : Fin 2) * 512 + 512
    omega
  | ⟨1, _⟩ =>
    show win0_19.index ⟨(i 0).val / 512, hlt⟩ (1 : Fin 2) * 1024 ≤ (i 1).val
      ∧ (i 1).val < win0_19.index ⟨(i 0).val / 512, hlt⟩ (1 : Fin 2) * 1024 + 1024
    omega

/-- So result window 19's array ends holding the result. -/
theorem final19 (c : Dev nD) : (dats m 0 c).arrAt 19 cfg0.N = resultC m c :=
  (dats m 0 c).arrAt_eq_of_cover 19 (resultC m c) (fun t _ => flushed19_eq m c t) cover19

/-- An index of the result array is in point t's band iff its coordinates are in the band's ranges. -/
theorem mem_band18 (t : Fin cfg0.N) (i : S8192x1024.Idx) :
    i ∈ ((cfg0.win 18).blk t).view.set ↔ ∀ a : Fin 2, win0_18.index t a * S512x1024.size a ≤ (i a).val
      ∧ (i a).val < win0_18.index t a * S512x1024.size a + S512x1024.size a := by
  show i ∈ ((View.whole main_v15_0).slice (win0_18.rect t)).set ↔ _
  rw [View.set_slice_whole, Rect.mem_set_unit]
  exact Iff.rfl

/-- The 16 bands tile the 8192 rows: row p is in band p / 512. -/
theorem cover18 (i : S8192x1024.Idx) :
    ∃ t : Fin cfg0.N, (cfg0.win 18).flush t = true ∧ i ∈ ((cfg0.win 18).blk t).view.set := by
  have hi0 : (i 0).val < 8192 := (i 0).isLt
  have hi1 : (i 1).val < 1024 := (i 1).isLt
  have hlt : (i 0).val / 512 < cfg0.N := by
    show (i 0).val / 512 < grid0.N
    rw [N_0]; omega
  obtain ⟨e0, e1⟩ := idx18 ⟨(i 0).val / 512, hlt⟩
  have e0' : win0_18.index ⟨(i 0).val / 512, hlt⟩ (0 : Fin 2) = (i 0).val / 512 := e0
  refine ⟨⟨(i 0).val / 512, hlt⟩, flush0_18 _, ?_⟩
  rw [mem_band18]
  intro a
  match a with
  | ⟨0, _⟩ =>
    show win0_18.index ⟨(i 0).val / 512, hlt⟩ (0 : Fin 2) * 512 ≤ (i 0).val
      ∧ (i 0).val < win0_18.index ⟨(i 0).val / 512, hlt⟩ (0 : Fin 2) * 512 + 512
    omega
  | ⟨1, _⟩ =>
    show win0_18.index ⟨(i 0).val / 512, hlt⟩ (1 : Fin 2) * 1024 ≤ (i 1).val
      ∧ (i 1).val < win0_18.index ⟨(i 0).val / 512, hlt⟩ (1 : Fin 2) * 1024 + 1024
    omega

/-- So result window 18's array ends holding the result. -/
theorem final18 (c : Dev nD) : (dats m 0 c).arrAt 18 cfg0.N = resultH m c :=
  (dats m 0 c).arrAt_eq_of_cover 18 (resultH m c) (fun t _ => flushed18_eq m c t) cover18

/-- The kernel's run, read: the two result arrays end as the next hidden and cell states of the argument arrays, and the
    arguments are unchanged. -/
theorem run : θ_run defs (onTc (τ := τ) (main (F := Ideal))) ⟨m, fun _ => 0, ρ⟩ fun r => ∀ c : Dev nD,
      r.2.mem ((c : Thread nD τ).loc main_v15_0) = resultH m c
      ∧ r.2.mem ((c : Thread nD τ).loc main_v15_1) = resultC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final18 m c), (h c).2.1.trans (final19 m c), (h c).2.2⟩)
    (Value.run_blocks m ρ)

end Cert.KernelIdeal.Whole

end
-- ==== Proof.Reference.lean ====
/-
  The reference program, read at one entry, is the peephole LSTM cell of `Spec`.

  The reference joins the four input matrices side by side into one [1024, 4096] matrix, likewise the four recurrent
  matrices, and the four biases end to end into one vector of 4096; it forms z = (x · W + h · U) + b once, [8192, 4096],
  and cuts z into four column bands of width 1024.  Column 1024 · n + q of a joined matrix is column q of the n-th
  matrix, so band n of z at (p, q) is gate n's pre-activation `gate` at (p, q): the sums run over the same 1024
  coordinates in the same order, and the bias is added last on both sides.  The logistic function is spelt out by the
  reference as 1 / (1 + exp (−z)), which is its definition on the extended reals; the rest is entrywise.
-/
import proofs.«176618_j14920716386505_2_alg».proof.Proof.Gen.ReferenceIdeal.Read
import proofs.«176618_j14920716386505_2_alg».proof.Proof.Spec
import Idealize.ShloMosaic.Lib.IdealHost
import Idealize.ShloMosaic.Lib.Pipeline.Value
import Idealize.ShloMosaic.Lib.ValueIdx

noncomputable section

namespace Cert.ReferenceIdeal.Cell

open Cert.ReferenceIdeal Cert.ReferenceIdeal.Gen Cert.ReferenceIdeal.Read Idealize.ShloMosaic Idealize.ShloMosaic.ValueIdx Cert.Lstm

/-- Four [1024, 1024] matrices joined side by side: entry (k, 1024 · n + q) is entry (k, q) of the n-th. -/
theorem side_by_side_apply (y0 y1 y2 y3 : FVec Ideal S1024x1024 .f32) (n : Fin 4) (k q : Fin 1024) (j : S1024x4096.Idx)
    (h : Shape.Concatenates [S1024x1024, S1024x1024, S1024x1024, S1024x1024] S1024x4096 1)
    (hj0 : (j 0).val = k.val) (hj1 : (j 1).val = 1024 * n.val + q.val) :
    concatenate S1024x4096 1 [⟨S1024x1024, y0⟩, ⟨S1024x1024, y1⟩, ⟨S1024x1024, y2⟩, ⟨S1024x1024, y3⟩] h j
      = (![y0, y1, y2, y3] n) (ix2 k q) := by
  refine concatenate_apply_piece 1 [⟨S1024x1024, y0⟩, ⟨S1024x1024, y1⟩, ⟨S1024x1024, y2⟩, ⟨S1024x1024, y3⟩] h j n.val n.isLt
    S1024x1024 (![y0, y1, y2, y3] n) ?_ rfl (1024 * n.val) ?_ (ix2 k q) ?_ ?_
  · fin_cases n <;> rfl
  · fin_cases n <;> rfl
  · intro b hb
    match b with
    | ⟨0, _⟩ => exact hj0.symm
    | ⟨1, _⟩ => exact absurd rfl hb
  · show 1024 * n.val + q.val = (j 1).val
    omega

/-- Four vectors of 1024 joined end to end: entry 1024 · n + q is entry q of the n-th. -/
theorem end_to_end_apply (y0 y1 y2 y3 : FVec Ideal S1024 .f32) (n : Fin 4) (q : Fin 1024) (j : S4096.Idx)
    (h : Shape.Concatenates [S1024, S1024, S1024, S1024] S4096 0) (hj : (j 0).val = 1024 * n.val + q.val) :
    concatenate S4096 0 [⟨S1024, y0⟩, ⟨S1024, y1⟩, ⟨S1024, y2⟩, ⟨S1024, y3⟩] h j = (![y0, y1, y2, y3] n) (ix1 q) := by
  refine concatenate_apply_piece 0 [⟨S1024, y0⟩, ⟨S1024, y1⟩, ⟨S1024, y2⟩, ⟨S1024, y3⟩] h j n.val n.isLt
    S1024 (![y0, y1, y2, y3] n) ?_ rfl (1024 * n.val) ?_ (ix1 q) ?_ ?_
  · fin_cases n <;> rfl
  · fin_cases n <;> rfl
  · intro b hb
    match b with
    | ⟨0, _⟩ => exact absurd rfl hb
  · show 1024 * n.val + q.val = (j 0).val
    omega

variable (x0 x1 x2 : FVec Ideal S8192x1024 .f32) (w0 w1 w2 w3 u0 u1 u2 u3 : FVec Ideal S1024x1024 .f32)
  (v0 v1 v2 b0 b1 b2 b3 : FVec Ideal S1024 .f32)

/-- The fused pre-activation z at (p, 1024 · n + q) is gate n's pre-activation at (p, q). -/
theorem fused_apply (n : Fin 4) (p : Fin 8192) (q : Fin 1024) (j : S8192x4096.Idx) (hj0 : (j 0).val = p.val)
    (hj1 : (j 1).val = 1024 * n.val + q.val) :
    val_main_v8 (F := Ideal) x0 x1 w0 w1 w2 w3 u0 u1 u2 u3 b0 b1 b2 b3 j = gate x0 x1 (![w0, w1, w2, w3] n) (![u0, u1, u2, u3] n) (![b0, b1, b2, b3] n) p q := by
  rw [val_main_v8_apply, val_main_v5_apply, val_main_v3_apply, val_main_v4_apply, val_main_v7_apply, val_main_v6_apply]
  unfold gate
  refine congrArg₂ (· + ·) (congrArg₂ (· + ·) (Finset.sum_congr rfl fun k _ => ?_) (Finset.sum_congr rfl fun k _ => ?_)) ?_
  · exact congrArg₂ (· * ·)
      (congrArg x0 (funext fun a => Fin.ext (by match a with | ⟨0, _⟩ => exact hj0 | ⟨1, _⟩ => rfl)))
      (side_by_side_apply w0 w1 w2 w3 n k q _ _ rfl hj1)
  · exact congrArg₂ (· * ·)
      (congrArg x1 (funext fun a => Fin.ext (by match a with | ⟨0, _⟩ => exact hj0 | ⟨1, _⟩ => rfl)))
      (side_by_side_apply u0 u1 u2 u3 n k q _ _ rfl hj1)
  · exact end_to_end_apply b0 b1 b2 b3 n q _ _ hj1

/-- The four column bands of z, at (p, q): the four gates' pre-activations. -/
theorem band_i_apply (p : Fin 8192) (q : Fin 1024) :
    val_main_v9 (F := Ideal) x0 x1 w0 w1 w2 w3 u0 u1 u2 u3 b0 b1 b2 b3 (ix2 p q) = gate x0 x1 w0 u0 b0 p q := by
  rw [val_main_v9_apply]
  exact fused_apply x0 x1 w0 w1 w2 w3 u0 u1 u2 u3 b0 b1 b2 b3 0 p q _ rfl (by show q.val = 1024 * 0 + q.val; omega)

theorem band_f_apply (p : Fin 8192) (q : Fin 1024) :
    val_main_v10 (F := Ideal) x0 x1 w0 w1 w2 w3 u0 u1 u2 u3 b0 b1 b2 b3 (ix2 p q) = gate x0 x1 w1 u1 b1 p q := by
  rw [val_main_v10_apply]
  exact fused_apply x0 x1 w0 w1 w2 w3 u0 u1 u2 u3 b0 b1 b2 b3 1 p q _ rfl (by show 1024 + q.val = 1024 * 1 + q.val; omega)

theorem band_c_apply (p : Fin 8192) (q : Fin 1024) :
    val_main_v11 (F := Ideal) x0 x1 w0 w1 w2 w3 u0 u1 u2 u3 b0 b1 b2 b3 (ix2 p q) = gate x0 x1 w2 u2 b2 p q := by
  rw [val_main_v11_apply]
  exact fused_apply x0 x1 w0 w1 w2 w3 u0 u1 u2 u3 b0 b1 b2 b3 2 p q _ rfl (by show 2048 + q.val = 1024 * 2 + q.val; omega)

theorem band_o_apply (p : Fin 8192) (q : Fin 1024) :
    val_main_v12 (F := Ideal) x0 x1 w0 w1 w2 w3 u0 u1 u2 u3 b0 b1 b2 b3 (ix2 p q) = gate x0 x1 w3 u3 b3 p q := by
  rw [val_main_v12_apply]
  exact fused_apply x0 x1 w0 w1 w2 w3 u0 u1 u2 u3 b0 b1 b2 b3 3 p q _ rfl (by show 3072 + q.val = 1024 * 3 + q.val; omega)

/-- The reference's spelling of the logistic function, 1 / (1 + exp (−z)) with the host's operations and the float
    constant one, is the logistic function of the extended reals. -/
theorem logistic_spelt_out (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = _
  rw [Ideal.ofBits_one_f32]
  rfl

/-- A vector of 1024 repeated down the 8192 rows (first viewed as a [1, 1024] row): entry (p, q) is entry q. -/
theorem peephole_i_apply (p : Fin 8192) (q : Fin 1024) : val_main_v14 (F := Ideal) v0 (ix2 p q) = v0 (ix1 q) := by
  rw [val_main_v14_apply, val_main_v13_apply]
  exact congrArg v0 (funext fun a => by match a with | ⟨0, _⟩ => rfl)

theorem peephole_f_apply (p : Fin 8192) (q : Fin 1024) : val_main_v24 (F := Ideal) v1 (ix2 p q) = v1 (ix1 q) := by
  rw [val_main_v24_apply, val_main_v23_apply]
  exact congrArg v1 (funext fun a => by match a with | ⟨0, _⟩ => rfl)

theorem peephole_o_apply (p : Fin 8192) (q : Fin 1024) : val_main_v38 (F := Ideal) v2 (ix2 p q) = v2 (ix1 q) := by
  rw [val_main_v38_apply, val_main_v37_apply]
  exact congrArg v2 (funext fun a => by match a with | ⟨0, _⟩ => rfl)

/-- The input gate at (p, q). -/
theorem input_gate_apply (p : Fin 8192) (q : Fin 1024) :
    val_main_v22 (F := Ideal) x0 x1 x2 w0 w1 w2 w3 u0 u1 u2 u3 v0 b0 b1 b2 b3 (ix2 p q) = Ideal.logistic (gate x0 x1 w0 u0 b0 p q + v0 (ix1 q) * x2 (ix2 p q)) := by
  rw [val_main_v22_apply, val_main_v21_apply, val_main_cst_0_apply, val_main_v20_apply, val_main_v19_apply, val_main_cst_apply,
    val_main_v18_apply, val_main_v17_apply, val_main_v16_apply, val_main_v15_apply, band_i_apply, peephole_i_apply]
  exact logistic_spelt_out _

/-- The forget gate at (p, q). -/
theorem forget_gate_apply (p : Fin 8192) (q : Fin 1024) :
    val_main_v32 (F := Ideal) x0 x1 x2 w0 w1 w2 w3 u0 u1 u2 u3 v1 b0 b1 b2 b3 (ix2 p q) = Ideal.logistic (gate x0 x1 w1 u1 b1 p q + v1 (ix1 q) * x2 (ix2 p q)) := by
  rw [val_main_v32_apply, val_main_v31_apply, val_main_cst_2_apply, val_main_v30_apply, val_main_v29_apply, val_main_cst_1_apply,
    val_main_v28_apply, val_main_v27_apply, val_main_v26_apply, val_main_v25_apply, band_f_apply, peephole_f_apply]
  exact logistic_spelt_out _

/-- The reference's first result, the next cell state, is `newC`. -/
theorem cell_eq : val_main_v36 (F := Ideal) x0 x1 x2 w0 w1 w2 w3 u0 u1 u2 u3 v0 v1 b0 b1 b2 b3 = newC x0 x1 x2 w0 w1 w2 u0 u1 u2 v0 v1 b0 b1 b2 := by
  funext i
  obtain ⟨p, q, rfl⟩ : ∃ (p : Fin 8192) (q : Fin 1024), i = ix2 p q := ⟨i 0, i 1, eq_ix2 i⟩
  rw [val_main_v36_apply, val_main_v34_apply, val_main_v35_apply, val_main_v33_apply, forget_gate_apply, input_gate_apply, band_c_apply]
  rfl

/-- The reference's second result, the next hidden state, is `newH`. -/
theorem hidden_eq : val_main_v48 (F := Ideal) x0 x1 x2 w0 w1 w2 w3 u0 u1 u2 u3 v0 v1 v2 b0 b1 b2 b3 = newH x0 x1 x2 w0 w1 w2 w3 u0 u1 u2 u3 v0 v1 v2 b0 b1 b2 b3 := by
  funext i
  obtain ⟨p, q, rfl⟩ : ∃ (p : Fin 8192) (q : Fin 1024), i = ix2 p q := ⟨i 0, i 1, eq_ix2 i⟩
  rw [val_main_v48_apply, val_main_v47_apply, val_main_v46_apply, val_main_v45_apply, val_main_cst_4_apply, val_main_v44_apply,
    val_main_v43_apply, val_main_cst_3_apply, val_main_v42_apply, val_main_v41_apply, val_main_v40_apply, val_main_v39_apply,
    band_o_apply, peephole_o_apply, cell_eq, logistic_spelt_out]
  rfl

end Cert.ReferenceIdeal.Cell

end
-- ==== Proof.lean ====
/-
  A peephole LSTM cell, computed by a kernel over bands of 512 batch rows, against the same cell computed with two fused
  matrix products: both programs, read on the extended reals, return
      c' = σ(z_f + V_f · c) · c + σ(z_i + V_i · c) · tanh z_c        and        h' = σ(z_o + V_o · c') · tanh c',
  where gate g's pre-activation is z_g = (x · W_g + h · U_g) + b_g.

  The kernel forms each z_g by its own two products per band (the activations and weights narrowed to a shorter float
  format first, which changes nothing on the extended reals); the reference joins the four W_g side by side, the four
  U_g side by side and the four b_g end to end, forms z = (x · W + h · U) + b once, and cuts z into four column bands.
  Column 1024 · n + q of a joined matrix is column q of its n-th part, so each entry of each z_g is the same two sums
  over the same 1024 coordinates, added in the same order, with the bias added last on both sides: no law of the
  extended reals beyond that reading is used, and the finiteness of the inputs is never needed.  The reference spells
  the logistic function out as 1 / (1 + exp (−z)), which is its definition here.

  `Spec` states the cell; `Cell` reads the kernel body's arithmetic at one entry of a band; `Whole` carries the 16
  bands to the whole result arrays; `Reference` reads the reference at one entry.  The three programs' runs and the
  reference's operation-by-operation reading are the generated modules imported below; the idealized kernel is the
  kernel's own text read on the extended reals, so nothing is owed for that step.
-/
import proofs.«176618_j14920716386505_2_alg».proof.Defs
import proofs.«176618_j14920716386505_2_alg».proof.Proof.Gen.Kernel
import proofs.«176618_j14920716386505_2_alg».proof.Proof.Gen.Kernel.Skeleton
import proofs.«176618_j14920716386505_2_alg».proof.Proof.Gen.Kernel.Launch
import proofs.«176618_j14920716386505_2_alg».proof.Proof.Gen.Kernel.Points
import proofs.«176618_j14920716386505_2_alg».proof.Proof.Gen.Kernel.Frame
import proofs.«176618_j14920716386505_2_alg».proof.Proof.Gen.KernelIdeal
import proofs.«176618_j14920716386505_2_alg».proof.Proof.Gen.KernelIdeal.Skeleton
import proofs.«176618_j14920716386505_2_alg».proof.Proof.Gen.KernelIdeal.Launch
import proofs.«176618_j14920716386505_2_alg».proof.Proof.Gen.KernelIdeal.Points
import proofs.«176618_j14920716386505_2_alg».proof.Proof.Gen.KernelIdeal.Frame
import proofs.«176618_j14920716386505_2_alg».proof.Proof.Gen.ReferenceIdeal
import proofs.«176618_j14920716386505_2_alg».proof.Proof.Gen.Pre_finite_inputs
import proofs.«176618_j14920716386505_2_alg».proof.Proof.Gen.KernelIdeal.Value
import proofs.«176618_j14920716386505_2_alg».proof.Proof.Gen.ReferenceIdeal.Run
import proofs.«176618_j14920716386505_2_alg».proof.Proof.Gen.ReferenceIdeal.Read
import proofs.«176618_j14920716386505_2_alg».proof.Proof.Whole
import proofs.«176618_j14920716386505_2_alg».proof.Proof.Reference
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Reading the kernel on the extended reals rewrote none of its operations. -/
theorem preserves : Cert.preserves_Kernel_KernelIdeal := trivial

/-- From memories that agree on the eighteen arguments, the kernel's two result arrays end as the next hidden and cell
    states of its arguments (`Whole.run`), and the reference's two results are the same two functions of its own
    arguments (`Reference`), which are the kernel's. -/
theorem algebraic : Cert.algebraic_KernelIdeal_ReferenceIdeal := by
  intro m ρ m' ρ' _ hagree
  refine ⟨fun c => Cert.KernelIdeal.Whole.resultH m c, fun c => Cert.KernelIdeal.Whole.resultC m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17⟩ := hagree c
    rw [Cert.ReferenceIdeal.Read.val_main_v48_eq, Cert.ReferenceIdeal.Cell.hidden_eq, h0, h1, h2, h3, h4, h5, h6, h7, h8, h9, h10, h11, h12, h13, h14, h15, h16, h17]
    rfl
  · obtain ⟨h0, h1, h2, h3, h4, h5, h6, h7, h8, h9, h10, h11, h12, h13, h14, h15, h16, h17⟩ := hagree c
    rw [Cert.ReferenceIdeal.Read.val_main_v36_eq, Cert.ReferenceIdeal.Cell.cell_eq, h0, h1, h2, h3, h4, h5, h7, h8, h9, h11, h12, h14, h15, h16]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
